-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024 : Shape := ⟨2, ![8, 1024]⟩
abbrev S8x64x16 : Shape := ⟨3, ![8, 64, 16]⟩
abbrev S64x8x16 : Shape := ⟨3, ![64, 8, 16]⟩
abbrev S8x1024x32000 : Shape := ⟨3, ![8, 1024, 32000]⟩
abbrev S1x8x16 : Shape := ⟨3, ![1, 8, 16]⟩
abbrev S8x16x32000 : Shape := ⟨3, ![8, 16, 32000]⟩
abbrev S8x16 : Shape := ⟨2, ![8, 16]⟩
abbrev S8x32000 : Shape := ⟨2, ![8, 32000]⟩
abbrev S8x16x1 : Shape := ⟨3, ![8, 16, 1]⟩
abbrev S8x1x32000 : Shape := ⟨3, ![8, 1, 32000]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .i32⟩
  | .hbm, ⟨1, _⟩ => ⟨S8x64x16, .i32⟩
  | .hbm, ⟨2, _⟩ => ⟨S64x8x16, .i32⟩
  | .hbm, ⟨3, _⟩ => ⟨S8x1024x32000, .f32⟩
  | .local _ .vmem, ⟨0, _⟩ => ⟨S1x8x16, .i32⟩
  | .local _ .vmem, ⟨1, _⟩ => ⟨S1x8x16, .i32⟩
  | .local _ .vmem, ⟨2, _⟩ => ⟨S8x16x32000, .f32⟩
  | .local _ .vmem, ⟨3, _⟩ => ⟨S8x16x32000, .f32⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x8x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x1024_S8x64x16 : S8x1024.ShapeCasts S8x64x16
  transposes_S8x64x16_S64x8x16_1_0_2 : S8x64x16.Transposes [1, 0, 2] S64x8x16
  inb_S1x8x16_S1x8x16_0_0_0 : ∀ a, (![0, 0, 0] : Fin 3 → Nat) a + S1x8x16.size a ≤ S1x8x16.size a
  h_S1x8x16 : 0 < S1x8x16.numel
  shapeCasts_S1x8x16_S8x16 : S1x8x16.ShapeCasts S8x16
  iota_S8x32000_d1_w32 : S8x32000.Iotas .tc 32 [1]
  shapeCasts_S8x16_S8x16x1 : S8x16.ShapeCasts S8x16x1
  shapeCasts_S8x32000_S8x1x32000 : S8x32000.ShapeCasts S8x1x32000
  broadcasts_S8x16x1_S8x16x32000 : S8x16x1.Broadcasts S8x16x32000
  broadcasts_S8x1x32000_S8x16x32000 : S8x1x32000.Broadcasts S8x16x32000
  natLt_1_32 : 1 < 32
  inb_S8x16x32000_S8x16x32000_0_0_0 : ∀ a, (![0, 0, 0] : Fin 3 → Nat) a + S8x16x32000.size a ≤ S8x16x32000.size a
  h_S8x16x32000 : 0 < S8x16x32000.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x16.size a ≤ S64x8x16.size a
  hwx0_0 : ∀ i : grid0.Coords, EltTy.bits .i32 = 32 ∨ (Rect.block (s := S64x8x16) S1x8x16.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x32000.size a ≤ S8x1024x32000.size a
  hwx0_1 : ∀ i : grid0.Coords, EltTy.bits .f32 = 32 ∨ (Rect.block (s := S8x1024x32000) S8x16x32000.size (cc0_transform_1 i) (hinb0_1 i)).WholeWords (EltTy.packing .f32)

variable [Facts₀]

abbrev win0_0 : Pipeline.Window sig grid0 :=
  Pipeline.Window.ofSpec (Memref.whole main_v1) S1x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x16x32000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x1024 : Shape := ⟨2, ![8, 1024]⟩
abbrev S8x1024x1 : Shape := ⟨3, ![8, 1024, 1]⟩
abbrev S1x1x32000 : Shape := ⟨3, ![1, 1, 32000]⟩
abbrev S8x1024x32000 : Shape := ⟨3, ![8, 1024, 32000]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .i32⟩
  | .hbm, ⟨1, _⟩ => ⟨S8x1024x1, .i32⟩
  | .hbm, ⟨2, _⟩ => ⟨S1x1x32000, .i32⟩
  | .hbm, ⟨3, _⟩ => ⟨S8x1024x32000, .i32⟩
  | .hbm, ⟨4, _⟩ => ⟨S8x1024x32000, .i32⟩
  | .hbm, ⟨5, _⟩ => ⟨S8x1024x32000, .i1⟩
  | .hbm, ⟨6, _⟩ => ⟨S8x1024x32000, .f32⟩
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]

class Facts₀ : Prop where
  bcast_S8x1024_S8x1024x1_0_1 : S8x1024.BroadcastsInDim S8x1024x1 (![0, 1] : Fin 2 → Fin S8x1024x1.rank)
  bcast_S8x1024x1_S8x1024x32000_0_1_2 : S8x1024x1.BroadcastsInDim S8x1024x32000 (![0, 1, 2] : Fin 3 → Fin S8x1024x32000.rank)
  bcast_S1x1x32000_S8x1024x32000_0_1_2 : S1x1x32000.BroadcastsInDim S8x1024x32000 (![0, 1, 2] : Fin 3 → Fin S8x1024x32000.rank)

variable [Facts₀]

class Facts : Prop extends Facts₀ where

variable [Facts]
-- ==== Proof.OneHot.lean ====
/-
  The one-hot encoding of an [8, 1024] array of 32-bit words over 32000 classes, as one function of the array,
  index by index: entry (b, j, k) is the comparison "the word x[b, j] is the word of the number k" — one bit — read as a
  natural number, so it is 1 at the class the word names and 0 at every other class. Both programs compare WORDS (a
  32-bit iota along the class axis against the argument laid along it), so a word that names no class below 32000 gives a
  row of zeros on both sides, and no range of the argument is assumed.
-/
import Idealize.ShloMosaic.PureOps.Ideal
import Idealize.ShloMosaic.Lib.ValueIdx

noncomputable section

namespace Cert.OneHot

open Idealize.ShloMosaic Idealize.ShloMosaic.ValueIdx

/-- Entry (b, j, k) of the one-hot array of `x`: the bit of `x[b, j] = k` (compared as 32-bit words) as an extended real. -/
def oneHot (x : (⟨2, ![8, 1024]⟩ : Shape).Idx → BitVec 32) : (⟨3, ![8, 1024, 32000]⟩ : Shape).Idx → Ideal .f32 :=
  fun i => FloatOps.uitofp .f32 (IntOp.cmpi .eq (x (ix2 (i 0) (i 1))) (BitVec.ofNat 32 (i 2).val))

end Cert.OneHot

end
-- ==== Proof.RefOneHot.lean ====
/-
  The reference's result is the one-hot array. The reference lays the argument along a new class axis ([8, 1024, 1], then
  [8, 1024, 32000]), lays a 32-bit iota of the class axis along rows and columns, compares the two word by word and converts
  the bit unsigned: entry (b, j, k) is the bit of "x[b, j] is the word of k" as a natural number, which is the specification
  read at that index.
-/
import proofs.«100924_j17884243821254_2_alg».proof.Proof.Gen.ReferenceIdeal.Read
import proofs.«100924_j17884243821254_2_alg».proof.Proof.OneHot

noncomputable section

namespace Cert.ReferenceIdeal.RefOneHot

open Cert.ReferenceIdeal Cert.ReferenceIdeal.Read Idealize.ShloMosaic Idealize.ShloMosaic.ValueIdx Cert.OneHot

/-- Reading the argument through its two broadcasts drops the class coordinate. -/
theorem arg_index (i : S8x1024x32000.Idx) : idx_main_call0_v0 (idx_main_call0_v2 i) = ix2 (i 0) (i 1) :=
  funext fun a => Fin.ext (by match a with | ⟨0, _⟩ => rfl | ⟨1, _⟩ => rfl)

/-- THE REFERENCE IS THE SPECIFICATION: its last stage, at the ideal values, is `oneHot` of the argument. -/
theorem ref_eq (x : S8x1024.Idx → BitVec 32) : val_main_v0 (F := Ideal) x = oneHot x := by
  funext i
  rw [val_main_v0_apply, val_main_call0_v4_apply, val_main_call0_v2_apply, val_main_call0_v0_apply, val_main_call0_v3_apply,
    val_main_call0_v1_apply, arg_index]
  rfl

end Cert.ReferenceIdeal.RefOneHot

end
-- ==== Proof.Payload.lean ====
/-
  What the kernel body stores, read at one index of its [8, 16, 32000] block. The body lays the block's words along a
  new class axis, lays a 32-bit iota of the class axis along the 16 columns, compares the two word by word, widens the
  bit to a word and converts that word as a signed integer. A bit widened with zeros is 0 or 1 as a signed word too, so the
  conversion is the bit's value as a natural number: entry (b, s, k) is the bit of "word (0, b, s) of the loaded block is
  the word of k".
-/
import proofs.«100924_j17884243821254_2_alg».proof.Proof.Gen.KernelIdeal.Skeleton
import Idealize.ShloMosaic.Lib.Pipeline.Value
import Idealize.ShloMosaic.Lib.ValueIdx
import Idealize.ShloMosaic.Lib.KernelVsHost

noncomputable section

namespace Cert.KernelIdeal.Payload

open Cert.KernelIdeal Cert.KernelIdeal.Gen Idealize.ShloMosaic Idealize.ShloMosaic.ValueIdx

/-- The left operand of the comparison: the loaded block's word (0, b, s), the same at every class k. -/
theorem word_apply (v0 : IVec S1x8x16 32) (b : Fin 8) (s : Fin 16) (k : Fin 32000) :
    broadcastTo S8x16x32000 (shapeCast S8x16x1 (shapeCast S8x16 v0 shapeCasts_S1x8x16_S8x16) shapeCasts_S8x16_S8x16x1)
        broadcasts_S8x16x1_S8x16x32000 (ix3 b s k)
      = v0 (ix3 0 b s) := by
  refine (broadcastTo_apply _ _ (ix3 b s k) (ix3 b s 0) (fun a => ?_)).trans ?_
  · match a with
    | ⟨0, _⟩ => show b.val = if (8 : Nat) = 1 then 0 else b.val; rw [if_neg (by decide)]
    | ⟨1, _⟩ => show s.val = if (16 : Nat) = 1 then 0 else s.val; rw [if_neg (by decide)]
    | ⟨2, _⟩ => show 0 = if (1 : Nat) = 1 then 0 else k.val; rw [if_pos rfl]
  refine (shapeCast_apply _ _ (ix3 b s 0) (ix2 b s) ?_).trans ?_
  · rw [Shape.rowMajor_val_two, Shape.rowMajor_val_three]
    show b.val * 16 + s.val = (b.val * 16 + s.val) * 1 + 0
    omega
  refine shapeCast_apply _ _ (ix2 b s) (ix3 0 b s) ?_
  rw [Shape.rowMajor_val_two, Shape.rowMajor_val_three]
  show (0 * 8 + b.val) * 16 + s.val = b.val * 16 + s.val
  omega

/-- The right operand: the class number k as a 32-bit word, the same at every row b and column s. -/
theorem class_apply (b : Fin 8) (s : Fin 16) (k : Fin 32000) :
    broadcastTo S8x16x32000 (shapeCast S8x1x32000 (iota .tc S8x32000 32 [1] iota_S8x32000_d1_w32) shapeCasts_S8x32000_S8x1x32000)
        broadcasts_S8x1x32000_S8x16x32000 (ix3 b s k)
      = BitVec.ofNat 32 k.val := by
  refine (broadcastTo_apply _ _ (ix3 b s k) (ix3 b 0 k) (fun a => ?_)).trans ?_
  · match a with
    | ⟨0, _⟩ => show b.val = if (8 : Nat) = 1 then 0 else b.val; rw [if_neg (by decide)]
    | ⟨1, _⟩ => show 0 = if (1 : Nat) = 1 then 0 else s.val; rw [if_pos rfl]
    | ⟨2, _⟩ => show k.val = if (32000 : Nat) = 1 then 0 else k.val; rw [if_neg (by decide)]
  refine (shapeCast_apply _ _ (ix3 b 0 k) (ix2 b k) ?_).trans ?_
  · rw [Shape.rowMajor_val_two, Shape.rowMajor_val_three]
    show b.val * 32000 + k.val = (b.val * 1 + 0) * 32000 + k.val
    omega
  exact iota_single_apply .tc S8x32000 32 1 iota_S8x32000_d1_w32 (ix2 b k)

/-- THE PAYLOAD AT AN INDEX: entry (b, s, k) of what the body stores is the bit of "word (0, b, s) of the loaded block
    is the word of k", as a natural number (the widened bit converted signed is the bit converted unsigned). -/
theorem payload_apply (v0 : Vec Ideal S1x8x16 .i32) (b : Fin 8) (s : Fin 16) (k : Fin 32000) :
    k0_pay1 (F := Ideal) v0 (ix3 b s k)
      = FloatOps.uitofp (F := Ideal) .f32 (IntOp.cmpi .eq (v0 (ix3 0 b s)) (BitVec.ofNat 32 k.val)) := by
  unfold k0_pay1
  refine (congrFun (sitofp_extui_eq_uitofp (φ := .f32) (cmpi .eq _ _) natLt_1_32) (ix3 b s k)).trans ?_
  exact congrArg₂ (fun p q => FloatOps.uitofp (F := Ideal) .f32 (IntOp.cmpi .eq p q)) (word_apply v0 b s k) (class_apply b s k)

end Cert.KernelIdeal.Payload

end
-- ==== Proof.HostPrefix.lean ====
/-
  The array the kernel's input window is cut from, read at one index. Before the region the host re-lays the [8, 1024]
  argument: it splits each row of 1024 words into 64 runs of 16 ([8, 64, 16]) and brings the run number to the front
  ([64, 8, 16]). So word (t, b, s) of that array is the argument's word (b, 16 t + s): run t, row b, place s in the run.
-/
import proofs.«100924_j17884243821254_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The re-laid array as the region finds it: the transpose of the reshape of the argument as launched. -/
theorem relaid_eq (c : Dev nD) :
    (V m c main_v1 : S64x8x16.Idx → Elt F .i32)
      = transpose S64x8x16 [1, 0, 2]
          (shapeCast S8x64x16 (m ((c : Thread nD τ).loc main_arg0) : S8x1024.Idx → Elt F .i32) shapeCasts_S8x1024_S8x64x16)
          transposes_S8x64x16_S64x8x16_1_0_2 := by
  dsimp only [V, hostOps0]
  after_results
  rfl

/-- WORD (t, b, s) OF THE RE-LAID ARRAY is the argument's word (b, 16 t + s). -/
theorem relaid_apply (c : Dev nD) (t : Fin 64) (b : Fin 8) (s : Fin 16) :
    (V m c main_v1 : S64x8x16.Idx → Elt F .i32) (ix3 t b s)
      = (m ((c : Thread nD τ).loc main_arg0) : S8x1024.Idx → Elt F .i32) (ix2 b ⟨16 * t.val + s.val, by omega⟩) := by
  rw [relaid_eq]
  refine (transpose_apply _ _ _ (ix3 t b s) (ix3 b t s) (fun a => ?_)).trans ?_
  · match a with
    | ⟨0, _⟩ => rfl
    | ⟨1, _⟩ => rfl
    | ⟨2, _⟩ => rfl
  refine shapeCast_apply _ _ (ix3 b t s) (ix2 b ⟨16 * t.val + s.val, by omega⟩) ?_
  rw [Shape.rowMajor_val_two, Shape.rowMajor_val_three]
  show b.val * 1024 + (16 * t.val + s.val) = (b.val * 64 + t.val) * 16 + s.val
  omega

end Cert.KernelIdeal.HostPrefix

end
-- ==== Proof.WholeArray.lean ====
/-
  From the kernel's blocks to its result array. The grid has 64 points. At point t the input block is run t of the
  re-laid argument — its word (0, b, s) is the argument's word (b, 16 t + s) — and the output block is columns
  16 t … 16 t + 15 of the [8, 1024, 32000] result, all rows and all classes. What the body stores at (b, s, k) is the bit of
  "word (0, b, s) is the word of k", so point t writes back exactly block t of the one-hot array of the argument; column j
  lies in the block of point j / 16, so the 64 blocks cover the result, which therefore ends as the one-hot array.
-/
import proofs.«100924_j17884243821254_2_alg».proof.Proof.Gen.KernelIdeal.Value
import proofs.«100924_j17884243821254_2_alg».proof.Proof.OneHot
import proofs.«100924_j17884243821254_2_alg».proof.Proof.Payload
import proofs.«100924_j17884243821254_2_alg».proof.Proof.HostPrefix

noncomputable section

namespace Cert.KernelIdeal.WholeArray

open Cert.KernelIdeal Cert.KernelIdeal.Gen Idealize.ShloMosaic Idealize.ShloMosaic.TcCoe Idealize.SL.Sem
open Idealize.ShloMosaic.Pipeline (Dat)
open Idealize.ShloMosaic.ValueIdx Cert.OneHot

variable (m : (ℓ : Loc nD τ sig) → Buf (Elt Ideal) ℓ) (ρ : Dev nD → PrngReg)

theorem zero_offsets : (![0, 0, 0] : Fin 3 → Nat) = fun _ => 0 := funext fun a => by fin_cases a <;> rfl

/-- Where the blocks sit at grid point t, decided over the 64 points: the input block is block (t, 0, 0) of the re-laid
    argument, the output block is block (0, t, 0) of the result. -/
theorem block_indices : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- ONE BLOCK OF THE SPECIFICATION. If a loaded block `x0` holds, at (0, b, s), word (b, 16 t + s) of an array `X`, then what
    the body stores at `y = (b, s, k)` is the one-hot array of `X` at (b, 16 t + s, k). -/
theorem block_value (X : S8x1024.Idx → BitVec 32) (x0 : Vec Ideal S1x8x16 .i32) (t : Nat) (ht : t < 64)
    (hx : ∀ (b : Fin 8) (s : Fin 16), x0 (ix3 0 b s) = X (ix2 b ⟨16 * t + s.val, by omega⟩))
    (y : S8x16x32000.Idx) (i : S8x1024x32000.Idx)
    (h0 : (i 0).val = (y 0).val) (h1 : (i 1).val = 16 * t + (y 1).val) (h2 : (i 2).val = (y 2).val) :
    k0_pay1 (F := Ideal) x0 y = oneHot X i := by
  obtain ⟨b, s, k, rfl⟩ : ∃ (b : Fin 8) (s : Fin 16) (k : Fin 32000), y = ix3 b s k := ⟨y 0, y 1, y 2, eq_ix3 y⟩
  rw [Payload.payload_apply, hx]
  unfold oneHot
  have e1 : (ix2 (i 0) (i 1) : S8x1024.Idx) = ix2 b (⟨16 * t + s.val, by omega⟩ : Fin 1024) := by
    funext a; apply Fin.ext
    match a with
    | ⟨0, _⟩ => exact h0
    | ⟨1, _⟩ => exact h1
  have e2 : (i 2).val = k.val := h2
  exact (congrArg₂ (fun p q => FloatOps.uitofp (F := Ideal) .f32 (IntOp.cmpi .eq (X p) (BitVec.ofNat 32 q))) e1 e2).symm

/-- The input block at point t: its word (0, b, s) is the argument's word (b, 16 t + s). -/
theorem input_block_apply (c : Dev nD) (t : Fin cfg0.N) (b : Fin 8) (s : Fin 16) :
    (iblk m c 0 t : Vec Ideal S1x8x16 .i32) (ix3 0 b s)
      = (m ((c : Thread nD τ).loc main_arg0) : S8x1024.Idx → BitVec 32)
          (ix2 b ⟨16 * t.val + s.val, by have := t.isLt; have : cfg0.N = 64 := N_0; omega⟩) := by
  have hN : cfg0.N = 64 := N_0
  have htl : t.val < 64 := by have := t.isLt; omega
  obtain ⟨e0, e1, e2, -, -, -⟩ := block_indices t
  unfold iblk
  rw [View.read_apply]
  show (V m c main_v1 : S64x8x16.Idx → Elt Ideal .i32) (((cfg0.win 0).blk t).view.emb (ix3 0 b s)) = _
  have he : ((cfg0.win 0).blk t).view.emb (ix3 0 b s) = ix3 (⟨t.val, htl⟩ : Fin 64) b s := by
    funext a; apply Fin.ext
    match a with
    | ⟨0, _⟩ => show win0_0.index t (0 : Fin 3) * 1 + 1 * 0 = t.val; rw [e0]; omega
    | ⟨1, _⟩ => show win0_0.index t (1 : Fin 3) * 8 + 1 * b.val = b.val; rw [e1]; omega
    | ⟨2, _⟩ => show win0_0.index t (2 : Fin 3) * 16 + 1 * s.val = s.val; rw [e2]; omega
  rw [he]
  exact HostPrefix.relaid_apply m c ⟨t.val, htl⟩ b s

/-- WHAT POINT t WRITES BACK is block t of the one-hot array of the argument. -/
theorem flushed_eq (c : Dev nD) (t : Fin cfg0.N) :
    (dats m 0 c).flushed 1 t
      = ((cfg0.win 1).blk t).view.read (Elt Ideal) (oneHot (m ((c : Thread nD τ).loc main_arg0))) := by
  have hN : cfg0.N = 64 := N_0
  have htl : t.val < 64 := by have := t.isLt; omega
  obtain ⟨-, -, -, e0, e1, e2⟩ := block_indices t
  rw [Value.flushed1]
  unfold out0_1
  rw [View.canon_unit_zero zero_offsets]
  simp only [View.ld_unit_zero (S := S1x8x16) zero_offsets]
  funext y
  show k0_pay1 (F := Ideal) (iblk m c 0 t) y
    = oneHot (m ((c : Thread nD τ).loc main_arg0)) (((cfg0.win 1).blk t).view.emb y)
  refine block_value _ _ t.val htl (fun b s => input_block_apply m c t b s) y _ ?_ ?_ ?_
  · show win0_1.index t (0 : Fin 3) * 8 + 1 * (y 0).val = (y 0).val; rw [e0]; omega
  · show win0_1.index t (1 : Fin 3) * 16 + 1 * (y 1).val = 16 * t.val + (y 1).val; rw [e1]; omega
  · show win0_1.index t (2 : Fin 3) * 32000 + 1 * (y 2).val = (y 2).val; rw [e2]; omega

/-- An index of the result is in point t's block iff each coordinate is in the block's range on its axis. -/
theorem mem_block (t : Fin cfg0.N) (i : S8x1024x32000.Idx) :
    i ∈ ((cfg0.win 1).blk t).view.set ↔ ∀ a : Fin 3, win0_1.index t a * S8x16x32000.size a ≤ (i a).val
      ∧ (i a).val < win0_1.index t a * S8x16x32000.size a + S8x16x32000.size a := by
  show i ∈ ((View.whole main_v2).slice (win0_1.rect t)).set ↔ _
  rw [View.set_slice_whole, Rect.mem_set_unit]
  exact Iff.rfl

/-- THE BLOCKS COVER THE RESULT: index (b, j, k) is in the block of point j / 16, which writes back. -/
theorem cover (i : S8x1024x32000.Idx) :
    ∃ t : Fin cfg0.N, (cfg0.win 1).flush t = true ∧ i ∈ ((cfg0.win 1).blk t).view.set := by
  have hN : cfg0.N = 64 := N_0
  have h0 : (i 0).val < 8 := (i 0).isLt
  have h1 : (i 1).val < 1024 := (i 1).isLt
  have h2 : (i 2).val < 32000 := (i 2).isLt
  obtain ⟨t, ht⟩ : ∃ t : Fin cfg0.N, t.val = (i 1).val / 16 := ⟨⟨(i 1).val / 16, by omega⟩, rfl⟩
  obtain ⟨-, -, -, e0, e1, e2⟩ := block_indices t
  refine ⟨t, flush0_1 t, ?_⟩
  rw [mem_block]
  intro a
  match a with
  | ⟨0, _⟩ =>
    show win0_1.index t (0 : Fin 3) * 8 ≤ (i 0).val ∧ (i 0).val < win0_1.index t (0 : Fin 3) * 8 + 8
    rw [e0]; omega
  | ⟨1, _⟩ =>
    show win0_1.index t (1 : Fin 3) * 16 ≤ (i 1).val ∧ (i 1).val < win0_1.index t (1 : Fin 3) * 16 + 16
    rw [e1, ht]; omega
  | ⟨2, _⟩ =>
    show win0_1.index t (2 : Fin 3) * 32000 ≤ (i 2).val ∧ (i 2).val < win0_1.index t (2 : Fin 3) * 32000 + 32000
    rw [e2]; omega

/-- THE RESULT ARRAY after the run is the one-hot array of the argument as launched. -/
theorem final (c : Dev nD) : (dats m 0 c).arrAt 1 cfg0.N = oneHot (m ((c : Thread nD τ).loc main_arg0)) :=
  (dats m 0 c).arrAt_eq_of_cover 1 (oneHot (m ((c : Thread nD τ).loc main_arg0))) (fun t _ => flushed_eq m c t) cover

/-- THE RUN, READ: every weakly fair execution ends with the result array at the one-hot array of the argument, the
    argument unchanged. -/
theorem run : θ_run defs (onTc (τ := τ) (main (F := Ideal))) ⟨m, fun _ => 0, ρ⟩ fun r => ∀ c : Dev nD,
      r.2.mem ((c : Thread nD τ).loc main_v2) = oneHot (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.WholeArray

end
-- ==== Proof.lean ====
/-
  The kernel and its reference both compute the one-hot encoding of an [8, 1024] array of 32-bit words over 32000 classes,
  as [8, 1024, 32000] floats: entry (b, j, k) is 1 where the word x[b, j] is the word of the number k, and 0 elsewhere.

  The kernel re-lays the argument on the host (each row cut into 64 runs of 16 words, the run number brought to the front)
  and runs a grid of 64 points; point t loads run t — the words x[b, 16 t + s] — compares them with a 32-bit iota of the
  class axis, widens the bit to a word, converts that word as a signed integer, and writes the [8, 16, 32000] block back as
  columns 16 t … 16 t + 15 of the result. The reference compares the argument, broadcast along a new class axis, with the
  same iota, and converts the bit unsigned. A bit widened with zeros is 0 or 1 read signed as well, so the two conversions
  agree, and both results are the one function `oneHot` of the argument (Proof/OneHot.lean), index by index:
  Proof/RefOneHot.lean reads the reference's stages at an index, Proof/Payload.lean the kernel body's stored value,
  Proof/HostPrefix.lean the re-laid argument, and Proof/WholeArray.lean puts the 64 blocks together into the result array.
  No float arithmetic is involved, so nothing is assumed of the argument; the pass that idealizes the kernel rewrote no
  operation, so there is nothing to preserve beyond the program's own text.
-/
import proofs.«100924_j17884243821254_2_alg».proof.Defs
import proofs.«100924_j17884243821254_2_alg».proof.Proof.Gen.Kernel
import proofs.«100924_j17884243821254_2_alg».proof.Proof.Gen.Kernel.Skeleton
import proofs.«100924_j17884243821254_2_alg».proof.Proof.Gen.Kernel.Launch
import proofs.«100924_j17884243821254_2_alg».proof.Proof.Gen.Kernel.Points
import proofs.«100924_j17884243821254_2_alg».proof.Proof.Gen.Kernel.Frame
import proofs.«100924_j17884243821254_2_alg».proof.Proof.Gen.KernelIdeal
import proofs.«100924_j17884243821254_2_alg».proof.Proof.Gen.KernelIdeal.Skeleton
import proofs.«100924_j17884243821254_2_alg».proof.Proof.Gen.KernelIdeal.Launch
import proofs.«100924_j17884243821254_2_alg».proof.Proof.Gen.KernelIdeal.Points
import proofs.«100924_j17884243821254_2_alg».proof.Proof.Gen.KernelIdeal.Frame
import proofs.«100924_j17884243821254_2_alg».proof.Proof.Gen.ReferenceIdeal
import proofs.«100924_j17884243821254_2_alg».proof.Proof.Gen.KernelIdeal.Value
import proofs.«100924_j17884243821254_2_alg».proof.Proof.Gen.ReferenceIdeal.Run
import proofs.«100924_j17884243821254_2_alg».proof.Proof.Gen.ReferenceIdeal.Read
import proofs.«100924_j17884243821254_2_alg».proof.Proof.OneHot
import proofs.«100924_j17884243821254_2_alg».proof.Proof.RefOneHot
import proofs.«100924_j17884243821254_2_alg».proof.Proof.WholeArray
import Idealize.ShloMosaic.Adequacy
import Idealize.ShloMosaic.Init

noncomputable section

namespace Cert.Proof

open Idealize.ShloMosaic Idealize.SL.Sem Cert.Kernel

/-- The word-level kernel runs and leaves its argument as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its argument as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From memories that agree on the argument, the kernel's result array ends as the one-hot array of the argument
    (the blocks put together) and so does the reference's (its stages read at an index). -/
theorem algebraic : Cert.algebraic_KernelIdeal_ReferenceIdeal := by
  intro m ρ m' ρ' _ hagree
  refine ⟨fun c => Cert.OneHot.oneHot (m ((c.tc : Thread Cert.KernelIdeal.nD Cert.KernelIdeal.τ).loc Cert.KernelIdeal.main_arg0)),
    Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefOneHot.ref_eq, hagree c]

theorem claim : Cert.Claim := ⟨Cert.Kernel.Gen.facts, Cert.KernelIdeal.Gen.facts, Cert.ReferenceIdeal.Gen.facts,
  frame_kernel, frame_kernelIdeal, frame_reference, preserves, algebraic⟩

end Cert.Proof

end
